-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts]

def fn_part1 {F : FTy → Type} [FloatOps F] (main_v13 : IVec S_ 1) (main_v16 : IVec S4x1x2048x2048 1) : IVec S_ 1 :=
  let main_c_5 : IVec S_ 1 := constantI S_ 1 1#1
  let main_v17 : IVec S_ 1 := (fun x v => Host.reduce IntOp.andi x v reducesTo_S4x1x2048x2048_S_d0_1_2_3 h_S_) main_v16 main_c_5
  let main_v18 : IVec S_ 1 := andi main_v13 main_v17
  main_v18

def fn {F : FTy → Type} [FloatOps F] (main_arg0 : FVec F S4x16x2048x64 .f32) (main_arg1 : FVec F S4x16x2048x64 .f32) (main_arg2 : FVec F S4x16x2048x64 .f32) (main_arg3 : FVec F S4x1x2048x2048 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  let main_v14 : FVec F S4x1x2048x2048 .f32 := Host.absf main_arg3
  let main_cst_4 : FVec F S_ .f32 := constant S_ .f32 0x7F800000#32
  let main_v15 : FVec F S4x1x2048x2048 .f32 := broadcastInDim S4x1x2048x2048 ![] bcast_S_S4x1x2048x2048 main_cst_4
  let main_v16 : IVec S4x1x2048x2048 1 := cmpf .olt main_v14 main_v15
  fn_part1 (F := F) main_v13 main_v16
-- ==== Kernel.lean ====
abbrev S4x16x2048x64 : Shape := ⟨4, ![4, 16, 2048, 64]⟩
abbrev S4x1x2048x2048 : Shape := ⟨4, ![4, 1, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .f32⟩
  | .hbm, ⟨4, _⟩ => ⟨S4x16x2048x64, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x512x2048, .f32⟩
  | .local _ .vmem, ⟨7, _⟩ => ⟨S1x1x512x2048, .f32⟩
  | .local _ .vmem, ⟨8, _⟩ => ⟨S1x1x512x64, .f32⟩
  | .local _ .vmem, ⟨9, _⟩ => ⟨S1x1x512x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .f32 = 32 ∨ (Rect.block (s := S4x1x2048x2048) S1x1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .f32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S4x16x2048x2048, .f32⟩
  | .hbm, ⟨12, _⟩ => ⟨S_, .f32⟩
  | .hbm, ⟨13, _⟩ => ⟨S4x16x2048, .f32⟩
  | .hbm, ⟨14, _⟩ => ⟨S4x16x2048x1, .f32⟩
  | .hbm, ⟨15, _⟩ => ⟨S_, .f32⟩
  | .hbm, ⟨16, _⟩ => ⟨S4x16x2048x1, .f32⟩
  | .hbm, ⟨17, _⟩ => ⟨S4x16x2048x1, .f32⟩
  | .hbm, ⟨18, _⟩ => ⟨S4x16x2048x2048, .f32⟩
  | .hbm, ⟨19, _⟩ => ⟨S4x16x2048x2048, .f32⟩
  | .hbm, ⟨20, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S4x16x2048_S4x16x2048x1_0_1_2 : S4x16x2048.BroadcastsInDim S4x16x2048x1 (![0, 1, 2] : Fin 3 → Fin S4x16x2048x1.rank)
  bcast_S_S4x16x2048x1 : S_.BroadcastsInDim S4x16x2048x1 (![] : Fin 0 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  The specification: unnormalised-exponential attention with a multiplicative mask, one output element at a time.
  For one query row `q` (64 numbers), the 2048 key rows `ks`, the mask row `mk` and one column `v` of the values:
  key `k` weighs `w k = exp ((∑ e, q e · ks k e) · c) · mk k` with `c` the word of 0.125; the row's denominator is
  `(∑ k, w k) + ε` with `ε` the word of 1e-8; the output element is `∑ k, (w k / denominator) · v k`. Every
  operation is the extended reals' own; nothing is rearranged, so the two programs meet at this term as they stand.
  The whole [4,16,2048,64] result reads each element's row, keys, mask row and value column off the four argument
  arrays: batch `b`, head `h`, query `q`, feature `d` take `Q[b,h,q,:]`, `K[b,h,:,:]`, `mask[b,0,q,:]` (one mask for
  all heads) and `V[b,h,:,d]`.
-/
import Idealize.ShloMosaic.PureOps.Ideal
import Idealize.ShloMosaic.Lib.ValueIdx

noncomputable section

open scoped BigOperators

namespace Cert.Attn

open Idealize.ShloMosaic Idealize.ShloMosaic.ValueIdx

/-- The weight of key `k` for one query row: the exponential of the scaled score, times the mask's entry. -/
def weight (q : Fin 64 → EReal) (ks : Fin 2048 → Fin 64 → EReal) (mk : Fin 2048 → EReal) (k : Fin 2048) : EReal :=
  Ideal.exp ((∑ e : Fin 64, q e * ks k e) * Ideal.ofBits .f32 0x3E000000#32) * mk k

/-- The row's denominator: the sum of its weights plus the small constant. -/
def denom (q : Fin 64 → EReal) (ks : Fin 2048 → Fin 64 → EReal) (mk : Fin 2048 → EReal) : EReal :=
  (∑ k : Fin 2048, weight q ks mk k) + Ideal.ofBits .f32 0x322BCC77#32

/-- One output element: the weights over the denominator, against one column of the values. -/
def rowAttn (q : Fin 64 → EReal) (ks : Fin 2048 → Fin 64 → EReal) (mk : Fin 2048 → EReal) (v : Fin 2048 → EReal) : EReal :=
  ∑ k : Fin 2048, Ideal.div (weight q ks mk k) (denom q ks mk) * v k

/-- The whole result array as one function of the four argument arrays, index by index. -/
def attn (Q K V : (⟨4, ![4, 16, 2048, 64]⟩ : Shape).Idx → EReal) (M : (⟨4, ![4, 1, 2048, 2048]⟩ : Shape).Idx → EReal) :
    (⟨4, ![4, 16, 2048, 64]⟩ : Shape).Idx → EReal := fun i =>
  rowAttn (fun e => Q (ix4 (i 0) (i 1) (i 2) e)) (fun k e => K (ix4 (i 0) (i 1) k e))
    (fun k => M (ix4 (i 0) (0 : Fin 1) (i 2) k)) (fun k => V (ix4 (i 0) (i 1) k (i 3)))

end Cert.Attn

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.BodyAt.lean ====
/-
  What the kernel's body computes, one element at a time. From its four loaded blocks — a tile of 512 query rows
  `x0`, all 2048 key rows `x1`, all 2048 value rows `x2` (each a `[1, 1, ·, 64]` block) and the tile's 512 mask rows
  `x3` — the body forms the scores by a matrix product into a zero accumulator, scales them by the word of 0.125,
  exponentiates, multiplies by the mask, sums each row and adds the small constant, divides the row by that, and
  multiplies by the values into a zero accumulator again. Read at row `r` and feature `d` of the stored block this
  is the specification's element of query row `x0[0,0,r,:]`, keys `x1[0,0,:,:]`, mask row `x3[0,0,r,:]` and value
  column `x2[0,0,:,d]`: a matrix product at an index is the sum over its one contracted coordinate; a row sum is the
  sum over the row's coordinates; the casts that drop or add the two leading unit axes and the cast and broadcast that
  keep the summed axis as a column only re-read their operand; a change of float format is the identity; everything
  else is element by element.
-/
import proofs.«179203_j33423435498058_1_alg».proof.Proof.Gen.KernelIdeal.Skeleton
import proofs.«179203_j33423435498058_1_alg».proof.Proof.AttnSpec
import proofs.«179203_j33423435498058_1_alg».proof.Proof.LibKeepdimsLayout
import Idealize.ShloMosaic.Lib.ValueIdx
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Cert.LayoutKeepdims

/-! ## The two matrix products at an index -/

/-- The score product's left operand is read at the output's row (its one free axis). -/
theorem scores_lhs0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl

/-- The score product's right operand is read at the output's column (its one free axis). -/
theorem scores_rhs0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl

/-- The scores: row `r` of the queries against row `j` of the keys, summed over the 64 features. -/
theorem scores_at (q : FVec Ideal S512x64 .bf16) (ks : FVec Ideal S2048x64 .bf16) (r : Fin 512) (j : Fin 2048) :
    matmul dot_S512x64_S2048x64_S512x2048_1_1_0_0_n_n none q ks (constant (F := Ideal) S512x2048 .f32 0x00000000#32) (ix2 r j)
      = ∑ e : Fin 64, q (ix2 r e) * ks (ix2 j e) := by
  simp only [matmul]
  rw [Ideal.matmul_constant_zero_apply, ← Equiv.sum_comp (contrEquiv1 dot_S512x64_S2048x64_S512x2048_1_1_0_0_n_n 64 rfl rfl).symm]
  refine Finset.sum_congr rfl fun e _ => ?_
  have he := contrEquiv1_symm_val dot_S512x64_S2048x64_S512x2048_1_1_0_0_n_n 64 rfl rfl e
  have el : dot_S512x64_S2048x64_S512x2048_1_1_0_0_n_n.lhsIdx (ix2 r j) ((contrEquiv1 dot_S512x64_S2048x64_S512x2048_1_1_0_0_n_n 64 rfl rfl).symm e) = (ix2 r e : S512x64.Idx) := funext fun a => Fin.ext (by
    match a with
    | ⟨0, _⟩ => exact scores_lhs0 _ _
    | ⟨1, _⟩ => exact (dot_S512x64_S2048x64_S512x2048_1_1_0_0_n_n.lhsIdx_val_of_single rfl _ _).trans he)
  have er : dot_S512x64_S2048x64_S512x2048_1_1_0_0_n_n.rhsIdx (ix2 r j) ((contrEquiv1 dot_S512x64_S2048x64_S512x2048_1_1_0_0_n_n 64 rfl rfl).symm e) = (ix2 j e : S2048x64.Idx) := funext fun a => Fin.ext (by
    match a with
    | ⟨0, _⟩ => exact scores_rhs0 _ _
    | ⟨1, _⟩ => exact (dot_S512x64_S2048x64_S512x2048_1_1_0_0_n_n.rhsIdx_val_of_single rfl _ _).trans he)
  rw [el, er]

/-- The output product's left operand is read at the output's row. -/
theorem out_lhs0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl

/-- The output product's right operand is read at the output's column. -/
theorem out_rhs1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output: row `r` of the normalised weights against column `d` of the values, summed over the 2048 keys. -/
theorem out_at (a : FVec Ideal S512x2048 .bf16) (v : FVec Ideal S2048x64 .bf16) (r : Fin 512) (d : Fin 64) :
    matmul dot_S512x2048_S2048x64_S512x64_1_0_0_1_n_n none a v (constant (F := Ideal) S512x64 .f32 0x00000000#32) (ix2 r d)
      = ∑ k : Fin 2048, a (ix2 r k) * v (ix2 k d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = (ix2 r k : S512x2048.Idx) := funext fun a => Fin.ext (by
    match a with
    | ⟨0, _⟩ => exact out_lhs0 _ _
    | ⟨1, _⟩ => exact (dot_S512x2048_S2048x64_S512x64_1_0_0_1_n_n.lhsIdx_val_of_single rfl _ _).trans hk)
  have er : dot_S512x2048_S2048x64_S512x64_1_0_0_1_n_n.rhsIdx (ix2 r d) ((contrEquiv1 dot_S512x2048_S2048x64_S512x64_1_0_0_1_n_n 2048 rfl rfl).symm k) = (ix2 k d : S2048x64.Idx) := funext fun a => Fin.ext (by
    match a with
    | ⟨0, _⟩ => exact (dot_S512x2048_S2048x64_S512x64_1_0_0_1_n_n.rhsIdx_val_of_single rfl _ _).trans hk
    | ⟨1, _⟩ => exact out_rhs1 _ _)
  rw [el, er]

/-! ## The row sum at an index -/

/-- A sum along the rows of a `[512, 2048]` vector from the zero word, read at row `r`: the sum of that row's entries. -/
theorem rowsum_at (p : FVec Ideal S512x2048 .f32) (h : S512x2048.Reduces [1] S512) (hφ : FKind.Formats .f32)
    (hacc : (0x00000000#32 : BitVec FTy.f32.bits) = FKind.add.neutral .f32 hφ) (r : Fin 512) :
    multiReduction .add [1] S512 p 0x00000000#32 h hφ hacc (ix1 r) = ∑ k : Fin 2048, p (ix2 r k) := by
  refine (Ideal.multiReduction_add_single p 0x00000000#32 h hφ hacc (ix1 r)).trans ?_
  refine Finset.sum_congr rfl fun k _ => congrArg p ?_
  funext a
  apply Fin.ext
  match a with
  | ⟨0, _⟩ => rfl
  | ⟨1, _⟩ => rfl

/-! ## The body's weights and its stored value -/

/-- The masked exponentials the body forms, at row `r` and key `k`: the specification's weight. -/
theorem weights_at (x0 : Vec Ideal S1x1x512x64 .f32) (x1 : Vec Ideal S1x1x2048x64 .f32) (x3 : Vec Ideal S1x1x512x2048 .f32)
    (r : Fin 512) (k : Fin 2048) :
    mulf (exp (mulf (matmul dot_S512x64_S2048x64_S512x2048_1_1_0_0_n_n none
        (truncf .bf16 (shapeCast S512x64 x0 shapeCasts_S1x1x512x64_S512x64) bitsLt_bf16_f32)
        (truncf .bf16 (shapeCast S2048x64 x1 shapeCasts_S1x1x2048x64_S2048x64) bitsLt_bf16_f32)
        (constant (F := Ideal) S512x2048 .f32 0x00000000#32))
      (broadcast S512x2048 (Scalar.ofBits (F := Ideal) .f32 0x3E000000#32))))
      (shapeCast S512x2048 x3 shapeCasts_S1x1x512x2048_S512x2048) (ix2 r k)
    = Cert.Attn.weight (fun e => x0 (ix4 (0 : Fin 1) (0 : Fin 1) r e)) (fun k e => x1 (ix4 (0 : Fin 1) (0 : Fin 1) k e))
        (fun k => x3 (ix4 (0 : Fin 1) (0 : Fin 1) r k)) k := by
  unfold Cert.Attn.weight
  refine congrArg₂ (· * ·) (congrArg Ideal.exp (congrArg (· * Ideal.ofBits .f32 0x3E000000#32) ?_))
    (shapeCast_11ab_ab_apply x3 _ r k)
  refine (scores_at _ _ r k).trans ?_
  refine Finset.sum_congr rfl fun e _ => ?_
  exact congrArg₂ (· * ·) (shapeCast_11ab_ab_apply x0 _ r e) (shapeCast_11ab_ab_apply x1 _ k e)

/-- THE BODY'S STORED VALUE at row `r`, feature `d` of the output block is the specification's element of the loaded
    blocks' rows. -/
theorem pay_at (x0 : Vec Ideal S1x1x512x64 .f32) (x1 x2 : Vec Ideal S1x1x2048x64 .f32) (x3 : Vec Ideal S1x1x512x2048 .f32)
    (r : Fin 512) (d : Fin 64) :
    k0_pay1 (F := Ideal) x0 x1 x2 x3 (ix4 (0 : Fin 1) (0 : Fin 1) r d)
      = Cert.Attn.rowAttn (fun e => x0 (ix4 (0 : Fin 1) (0 : Fin 1) r e)) (fun k e => x1 (ix4 (0 : Fin 1) (0 : Fin 1) k e))
          (fun k => x3 (ix4 (0 : Fin 1) (0 : Fin 1) r k)) (fun k => x2 (ix4 (0 : Fin 1) (0 : Fin 1) k d)) := by
  unfold k0_pay1
  refine (shapeCast_ab_11ab_apply _ _ (0 : Fin 1) (0 : Fin 1) r d).trans ?_
  refine (out_at _ _ r d).trans ?_
  unfold Cert.Attn.rowAttn
  refine Finset.sum_congr rfl fun k _ => ?_
  refine congrArg₂ (· * ·) ?_ (shapeCast_11ab_ab_apply x2 _ k d)
  refine congrArg₂ Ideal.div (weights_at x0 x1 x3 r k) ?_
  refine (broadcastTo_a1_ab_apply _ _ r k).trans ?_
  unfold Cert.Attn.denom
  refine congrArg₂ (· + ·) ?_ rfl
  refine (shapeCast_a_a1_apply _ _ r (0 : Fin 1)).trans ?_
  refine (rowsum_at _ _ _ _ r).trans ?_
  exact Finset.sum_congr rfl fun k' _ => weights_at x0 x1 x3 r k'

end Cert.KernelIdeal.BodyValue

end
-- ==== Proof.ArrayValue.lean ====
/-
  From blocks to the whole result array. The grid has 4 · 4 · 16 points (batch, query tile, head). At a point the
  output block is `[1, 1, 512, 64]` at block index (batch, head, tile, 0); the query block sits at the same block
  index, the key and value blocks are the whole `[2048, 64]` slab of (batch, head), and the mask block is the tile's
  512 rows of the batch's one mask — these relations between the index maps are decided once over the 256 points. An
  element of a block sits in its array at block index × block size + its coordinate on each axis, so every row the
  body reads is the row of the argument array the specification names, and what a point writes back is its block of
  the specification. Every index of the result lies in exactly the block of its batch, head and tile (row / 512), so
  the blocks cover the array and the array ends as the specification of the four arguments.
-/
import proofs.«179203_j33423435498058_1_alg».proof.Proof.Gen.KernelIdeal.Value
import proofs.«179203_j33423435498058_1_alg».proof.Proof.BodyAt

noncomputable section

open scoped BigOperators

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl

/-- What the result array ends holding: the specification of the four argument arrays as launched. -/
abbrev result (c : Dev nD) : S4x16x2048x64.Idx → Elt Ideal .f32 :=
  Cert.Attn.attn (m ((c : Thread nD τ).loc main_arg0)) (m ((c : Thread nD τ).loc main_arg1))
    (m ((c : Thread nD τ).loc main_arg2)) (m ((c : Thread nD τ).loc main_arg3))

/-! ## The index maps over the grid -/

/-- The query block sits at the output block's index. -/
theorem idx_query : ∀ t : Fin cfg0.N, win0_0.index t (0 : Fin 4) = win0_4.index t (0 : Fin 4)
    ∧ win0_0.index t (1 : Fin 4) = win0_4.index t (1 : Fin 4)
    ∧ win0_0.index t (2 : Fin 4) = win0_4.index t (2 : Fin 4)
    ∧ win0_0.index t (3 : Fin 4) = 0 :=
  (by decide +kernel : ∀ t : Fin grid0.N, _)

/-- The key block is the whole slab of the output block's batch and head. -/
theorem idx_keys : ∀ t : Fin cfg0.N, win0_1.index t (0 : Fin 4) = win0_4.index t (0 : Fin 4)
    ∧ win0_1.index t (1 : Fin 4) = win0_4.index t (1 : Fin 4)
    ∧ win0_1.index t (2 : Fin 4) = 0
    ∧ win0_1.index t (3 : Fin 4) = 0 :=
  (by decide +kernel : ∀ t : Fin grid0.N, _)

/-- The value block likewise. -/
theorem idx_values : ∀ t : Fin cfg0.N, win0_2.index t (0 : Fin 4) = win0_4.index t (0 : Fin 4)
    ∧ win0_2.index t (1 : Fin 4) = win0_4.index t (1 : Fin 4)
    ∧ win0_2.index t (2 : Fin 4) = 0
    ∧ win0_2.index t (3 : Fin 4) = 0 :=
  (by decide +kernel : ∀ t : Fin grid0.N, _)

/-- The mask block is the output block's tile of rows in its batch's one mask. -/
theorem idx_mask : ∀ t : Fin cfg0.N, win0_3.index t (0 : Fin 4) = win0_4.index t (0 : Fin 4)
    ∧ win0_3.index t (1 : Fin 4) = 0
    ∧ win0_3.index t (2 : Fin 4) = win0_4.index t (2 : Fin 4)
    ∧ win0_3.index t (3 : Fin 4) = 0 :=
  (by decide +kernel : ∀ t : Fin grid0.N, _)

/-- The output block's indices stay in their ranges, and the last is zero. -/
theorem idx_out : ∀ t : Fin cfg0.N, win0_4.index t (0 : Fin 4) ≤ 3 ∧ win0_4.index t (1 : Fin 4) ≤ 15
    ∧ win0_4.index t (2 : Fin 4) ≤ 3 ∧ win0_4.index t (3 : Fin 4) = 0 :=
  (by decide +kernel : ∀ t : Fin grid0.N, _)

/-- Every (batch, head, tile) is SOME point's output block. -/
theorem idx_onto : ∀ (b : Fin 4) (h : Fin 16) (qt : Fin 4), ∃ t : Fin cfg0.N, win0_4.index t = ![b.val, h.val, qt.val, 0] :=
  (by decide +kernel : ∀ (b : Fin 4) (h : Fin 16) (qt : Fin 4), ∃ t : Fin grid0.N, win0_4.index t = ![b.val, h.val, qt.val, 0])

/-! ## Block elements in their arrays -/

section Reads
variable (c : Dev nD) (t : Fin cfg0.N) (b : Fin 4) (h : Fin 16)

/-- Row `r`, feature `d` of the output block is element (b, h, q, d) of the result, `q` the tile's row. -/
theorem out_emb (hb : b.val = win0_4.index t (0 : Fin 4)) (hh : h.val = win0_4.index t (1 : Fin 4))
    (r : Fin 512) (d : Fin 64) (q : Fin 2048) (hq : q.val = win0_4.index t (2 : Fin 4) * 512 + r.val) :
    ((cfg0.win 4).blk t).view.emb (ix4 (0 : Fin 1) (0 : Fin 1) r d) = (ix4 b h q d : S4x16x2048x64.Idx) := by
  obtain ⟨-, -, -, e3⟩ := idx_out t
  funext a
  apply Fin.ext
  match a with
  | ⟨0, _⟩ => show win0_4.index t (0 : Fin 4) * 1 + 1 * 0 = b.val; omega
  | ⟨1, _⟩ => show win0_4.index t (1 : Fin 4) * 1 + 1 * 0 = h.val; omega
  | ⟨2, _⟩ => show win0_4.index t (2 : Fin 4) * 512 + 1 * r.val = q.val; omega
  | ⟨3, _⟩ => show win0_4.index t (3 : Fin 4) * 64 + 1 * d.val = d.val; omega

/-- The query block's row `r` is row `q` of `Q[b, h]`. -/
theorem read_query (hb : b.val = win0_4.index t (0 : Fin 4)) (hh : h.val = win0_4.index t (1 : Fin 4))
    (r : Fin 512) (e : Fin 64) (q : Fin 2048) (hq : q.val = win0_4.index t (2 : Fin 4) * 512 + r.val) :
    iblk m c 0 t (ix4 (0 : Fin 1) (0 : Fin 1) r e) = m ((c : Thread nD τ).loc main_arg0) (ix4 b h q e) := by
  obtain ⟨e0, e1, e2, e3⟩ := idx_query t
  show V m c main_arg0 (((cfg0.win 0).blk t).view.emb (ix4 (0 : Fin 1) (0 : Fin 1) r e)) = V m c main_arg0 (ix4 b h q e)
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = q.val; omega
  | ⟨3, _⟩ => show win0_0.index t (3 : Fin 4) * 64 + 1 * e.val = e.val; omega

/-- The key block's row `k` is row `k` of `K[b, h]`. -/
theorem read_keys (hb : b.val = win0_4.index t (0 : Fin 4)) (hh : h.val = win0_4.index t (1 : Fin 4))
    (k : Fin 2048) (e : Fin 64) :
    iblk m c 1 t (ix4 (0 : Fin 1) (0 : Fin 1) k e) = m ((c : Thread nD τ).loc main_arg1) (ix4 b h k e) := by
  obtain ⟨e0, e1, e2, e3⟩ := idx_keys t
  show V m c main_arg1 (((cfg0.win 1).blk t).view.emb (ix4 (0 : Fin 1) (0 : Fin 1) k e)) = V m c main_arg1 (ix4 b h k e)
  refine congrArg (V m c main_arg1) (funext fun a => Fin.ext ?_)
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * k.val = k.val; omega
  | ⟨3, _⟩ => show win0_1.index t (3 : Fin 4) * 64 + 1 * e.val = e.val; omega

/-- The value block's row `k` is row `k` of `V[b, h]`. -/
theorem read_values (hb : b.val = win0_4.index t (0 : Fin 4)) (hh : h.val = win0_4.index t (1 : Fin 4))
    (k : Fin 2048) (e : Fin 64) :
    iblk m c 2 t (ix4 (0 : Fin 1) (0 : Fin 1) k e) = m ((c : Thread nD τ).loc main_arg2) (ix4 b h k e) := by
  obtain ⟨e0, e1, e2, e3⟩ := idx_values t
  show V m c main_arg2 (((cfg0.win 2).blk t).view.emb (ix4 (0 : Fin 1) (0 : Fin 1) k e)) = V m c main_arg2 (ix4 b h k e)
  refine congrArg (V m c main_arg2) (funext fun a => Fin.ext ?_)
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * k.val = k.val; omega
  | ⟨3, _⟩ => show win0_2.index t (3 : Fin 4) * 64 + 1 * e.val = e.val; omega

/-- The mask block's row `r` is row `q` of the batch's one mask. -/
theorem read_mask (hb : b.val = win0_4.index t (0 : Fin 4))
    (r : Fin 512) (k : Fin 2048) (q : Fin 2048) (hq : q.val = win0_4.index t (2 : Fin 4) * 512 + r.val) :
    iblk m c 3 t (ix4 (0 : Fin 1) (0 : Fin 1) r k) = m ((c : Thread nD τ).loc main_arg3) (ix4 b (0 : Fin 1) q k) := by
  obtain ⟨e0, e1, e2, e3⟩ := idx_mask t
  show V m c main_arg3 (((cfg0.win 3).blk t).view.emb (ix4 (0 : Fin 1) (0 : Fin 1) r k)) = V m c main_arg3 (ix4 b (0 : Fin 1) q k)
  refine congrArg (V m c main_arg3) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = q.val; omega
  | ⟨3, _⟩ => show win0_3.index t (3 : Fin 4) * 2048 + 1 * k.val = k.val; omega

end Reads

/-! ## What a point writes back -/

/-- The body's value of four blocks whose rows are rows of four arrays is the specification of the arrays there. -/
theorem block_point (A0 A1 A2 : S4x16x2048x64.Idx → EReal) (A3 : S4x1x2048x2048.Idx → EReal)
    (x0 : Vec Ideal S1x1x512x64 .f32) (x1 x2 : Vec Ideal S1x1x2048x64 .f32) (x3 : Vec Ideal S1x1x512x2048 .f32)
    (r : Fin 512) (d : Fin 64) (b : Fin 4) (h : Fin 16) (q : Fin 2048)
    (h0 : ∀ e : Fin 64, x0 (ix4 (0 : Fin 1) (0 : Fin 1) r e) = A0 (ix4 b h q e))
    (h1 : ∀ (k : Fin 2048) (e : Fin 64), x1 (ix4 (0 : Fin 1) (0 : Fin 1) k e) = A1 (ix4 b h k e))
    (h2 : ∀ k : Fin 2048, x2 (ix4 (0 : Fin 1) (0 : Fin 1) k d) = A2 (ix4 b h k d))
    (h3 : ∀ k : Fin 2048, x3 (ix4 (0 : Fin 1) (0 : Fin 1) r k) = A3 (ix4 b (0 : Fin 1) q k)) :
    k0_pay1 (F := Ideal) x0 x1 x2 x3 (ix4 (0 : Fin 1) (0 : Fin 1) r d) = Cert.Attn.attn A0 A1 A2 A3 (ix4 b h q d) := by
  rw [Cert.KernelIdeal.BodyValue.pay_at, funext h0, funext h2, funext h3,
    show (fun k e => x1 (ix4 (0 : Fin 1) (0 : Fin 1) k e)) = fun k e => A1 (ix4 b h k e) from funext fun k => funext (h1 k)]
  rfl

/-- The body's value at an element of the point's blocks is the specification at that element's place in the result. -/
theorem point_eq (c : Dev nD) (t : Fin cfg0.N) (y : S1x1x512x64.Idx) :
    k0_pay1 (F := Ideal) (iblk m c 0 t) (iblk m c 1 t) (iblk m c 2 t) (iblk m c 3 t) y
      = result m c (((cfg0.win 4).blk t).view.emb y) := by
  obtain ⟨u, u', r, d, rfl⟩ : ∃ (u u' : Fin 1) (r : Fin 512) (d : Fin 64), y = ix4 u u' r d := ⟨y 0, y 1, y 2, y 3, eq_ix4 y⟩
  obtain rfl : u = 0 := Subsingleton.elim _ _
  obtain rfl : u' = 0 := Subsingleton.elim _ _
  obtain ⟨l0, l1, l2, -⟩ := idx_out t
  have hr : r.val < 512 := r.isLt
  have hb : win0_4.index t (0 : Fin 4) < 4 := by omega
  have hh : win0_4.index t (1 : Fin 4) < 16 := by omega
  have hq : win0_4.index t (2 : Fin 4) * 512 + r.val < 2048 := by omega
  rw [out_emb t ⟨_, hb⟩ ⟨_, hh⟩ rfl rfl r d ⟨_, hq⟩ rfl]
  exact block_point (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) r d ⟨_, hb⟩ ⟨_, hh⟩ ⟨_, hq⟩
    (fun e => read_query m c t ⟨_, hb⟩ ⟨_, hh⟩ rfl rfl r e ⟨_, hq⟩ rfl)
    (fun k e => read_keys m c t ⟨_, hb⟩ ⟨_, hh⟩ rfl rfl k e)
    (fun k => read_values m c t ⟨_, hb⟩ ⟨_, hh⟩ rfl rfl k d)
    (fun k => read_mask m c t ⟨_, hb⟩ rfl r k ⟨_, hq⟩ rfl)

/-- WHAT POINT `t` WRITES BACK is block `t` of the specification of the argument arrays. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros4]
  simp only [View.ld_unit_zero (S := S1x1x512x64) zeros4, View.ld_unit_zero (S := S1x1x2048x64) zeros4,
    View.ld_unit_zero (S := S1x1x512x2048) zeros4]
  exact funext fun j => point_eq m c t j

/-! ## The cover, the array and the run -/

/-- An index of the array is in point `t`'s block iff each coordinate is in the block's range on its axis. -/
theorem mem_blk (t : Fin cfg0.N) (i : S4x16x2048x64.Idx) :
    i ∈ ((cfg0.win 4).blk t).view.set ↔ ∀ a : Fin 4, win0_4.index t a * S1x1x512x64.size a ≤ (i a).val ∧ (i a).val < win0_4.index t a * S1x1x512x64.size a + S1x1x512x64.size a := by
  show i ∈ ((View.whole main_v0).slice (win0_4.rect t)).set ↔ _
  rw [View.set_slice_whole, Rect.mem_set_unit]
  exact Iff.rfl

/-- Every index of the result is in the block of its batch, head and tile. -/
theorem cover (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- THE ARRAY after the run is the specification of the four arguments. -/
theorem final (c : Dev nD) : (dats m 0 c).arrAt 4 cfg0.N = result m c :=
  (dats m 0 c).arrAt_eq_of_cover 4 (result m c) (fun t _ => flushed_eq m c t) (cover)

/-- The kernel's run re-posted: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.ScaleConst.lean ====
/-
  The two float words behind the score scale, as the extended reals they denote. The kernel multiplies a
  score by the word of 0.125; the reference divides it by the square root of the word of 64.0. Both words are
  exact dyadics, 1/8 and 64, and the square root of 64 is 8, so dividing by that root is multiplying by 1/8 — on
  every extended real, the infinities included, since a division by a nonzero real is the product with its
  reciprocal there.
-/
import Idealize.ShloMosaic.PureOps.Ideal

noncomputable section

namespace Cert.Attn

open Idealize.ShloMosaic

/-- The word of `0.125` denotes the real `1/8`. -/
theorem ofBits_eighth : Ideal.ofBits .f32 0x3E000000#32 = ((1 / 8 : ℝ) : EReal) := by
  simp [Ideal.ofBits, Ideal.ieee, -EReal.coe_mul]; norm_num

/-- The word of `64.0` denotes the real `64`. -/
theorem ofBits_64 : Ideal.ofBits .f32 0x42800000#32 = ((64 : ℝ) : EReal) := by
  simp [Ideal.ofBits, Ideal.ieee, -EReal.coe_mul]; norm_num

/-- The square root of `64` is `8`. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of the word of `64.0` is multiplying by the word of `0.125`, at every extended real. -/
theorem div_sqrt64_eq_mul_eighth (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Attn

end
-- ==== Proof.RefIsAttn.lean ====
/-
  The reference computes the specification. Its seventeen host operations are read one at a time at an index (the
  generated stage lemmas), and at coordinates (b, h, q, ·) they are, in order: the scores `∑ e, Q[b,h,q,e] · K[b,h,k,e]`
  divided by the square root of 64 — which is the product with 1/8 —, their exponentials times the mask's entry
  `mask[b,0,q,k]` (the specification's weights), the weights' sum over `k` from a zero start, that sum plus the small
  constant (the row's denominator, carried through two broadcasts that only re-read it), the weights over it, and
  their contraction over `k` with `V[b,h,k,d]`. Each index function the stages compose is, on coordinates, the plain
  tuple one expects; nothing else is needed.
-/
import proofs.«179203_j33423435498058_1_alg».proof.Proof.Gen.ReferenceIdeal.Read
import proofs.«179203_j33423435498058_1_alg».proof.Proof.AttnSpec
import proofs.«179203_j33423435498058_1_alg».proof.Proof.ScaleConst

noncomputable section

open scoped BigOperators

namespace Cert.ReferenceIdeal.RefValue

open Cert.ReferenceIdeal Cert.ReferenceIdeal.Read Idealize.ShloMosaic Idealize.ShloMosaic.ValueIdx

variable (Q K V : (⟨S4x16x2048x64, .f32⟩ : BufTy).Contents (Elt Ideal)) (M : (⟨S4x1x2048x2048, .f32⟩ : BufTy).Contents (Elt Ideal))

/-- The row, keys and mask row the specification takes at batch `b`, head `h`, query `q`. -/
abbrev qrow (b : Fin 4) (h : Fin 16) (q : Fin 2048) : Fin 64 → EReal := fun e => Q (ix4 b h q e)
abbrev keys (b : Fin 4) (h : Fin 16) : Fin 2048 → Fin 64 → EReal := fun k e => K (ix4 b h k e)
abbrev mrow (b : Fin 4) (q : Fin 2048) : Fin 2048 → EReal := fun k => M (ix4 b (0 : Fin 1) q k)

/-- The masked exponentials at (b, h, q, k) are the specification's weights. -/
theorem weight_at (b : Fin 4) (h : Fin 16) (q k : Fin 2048) :
    val_main_v6 (F := Ideal) Q K M (ix4 b h q k) = Cert.Attn.weight (qrow Q b h q) (keys K b h) (mrow M b q) k := by
  have el : ∀ e : Fin 64, lidx_main_v0 (ix4 b h q k) e = (ix4 b h q e : S4x16x2048x64.Idx) := fun e =>
    funext fun a => Fin.ext (by match a with | ⟨0, _⟩ => rfl | ⟨1, _⟩ => rfl | ⟨2, _⟩ => rfl | ⟨3, _⟩ => rfl)
  have er : ∀ e : Fin 64, ridx_main_v0 (ix4 b h q k) e = (ix4 b h k e : S4x16x2048x64.Idx) := fun e =>
    funext fun a => Fin.ext (by match a with | ⟨0, _⟩ => rfl | ⟨1, _⟩ => rfl | ⟨2, _⟩ => rfl | ⟨3, _⟩ => rfl)
  have em : idx_main_v5 (ix4 b h q k) = (ix4 b (0 : Fin 1) q k : S4x1x2048x2048.Idx) :=
    funext fun a => Fin.ext (by match a with | ⟨0, _⟩ => rfl | ⟨1, _⟩ => rfl | ⟨2, _⟩ => rfl | ⟨3, _⟩ => rfl)
  rw [val_main_v6_apply, val_main_v4_apply, val_main_v3_apply, val_main_v0_apply, val_main_v2_apply, val_main_v1_apply,
    val_main_cst_apply, val_main_v5_apply]
  simp only [el, er, em, Ideal.mulf_def, Ideal.hostUnary_exp_def, Ideal.hostDivf_def, Ideal.hostUnary_sqrt_def,
    Ideal.ofBits_def, Cert.Attn.div_sqrt64_eq_mul_eighth]
  rfl

/-- The row sums at (b, h, q) are the sums of the weights: the reduction starts from the zero word. -/
theorem rowsum_at (b : Fin 4) (h : Fin 16) (q : Fin 2048) :
    val_main_v7 (F := Ideal) Q K M (ix3 b h q) = ∑ k : Fin 2048, Cert.Attn.weight (qrow Q b h q) (keys K b h) (mrow M b q) k := by
  have ei : ∀ k : Fin 2048, idx_main_v7 (ix3 b h q) k = (ix4 b h q k : S4x16x2048x2048.Idx) := fun k =>
    funext fun a => Fin.ext (by match a with | ⟨0, _⟩ => rfl | ⟨1, _⟩ => rfl | ⟨2, _⟩ => rfl | ⟨3, _⟩ => rfl)
  rw [val_main_v7_apply, val_main_cst_0_apply]
  simp only [ei, weight_at, Ideal.ofBits_def, Ideal.ofBits_zero_f32, zero_add]

/-- The broadcast denominator at (b, h, q, k) is the specification's, whatever `k`. -/
theorem denom_at (b : Fin 4) (h : Fin 16) (q k : Fin 2048) :
    val_main_v11 (F := Ideal) Q K M (ix4 b h q k) = Cert.Attn.denom (qrow Q b h q) (keys K b h) (mrow M b q) := by
  have e11 : idx_main_v11 (ix4 b h q k) = (ix4 b h q (0 : Fin 1) : S4x16x2048x1.Idx) :=
    funext fun a => Fin.ext (by match a with | ⟨0, _⟩ => rfl | ⟨1, _⟩ => rfl | ⟨2, _⟩ => rfl | ⟨3, _⟩ => rfl)
  have e8 : idx_main_v8 (ix4 b h q (0 : Fin 1)) = (ix3 b h q : S4x16x2048.Idx) :=
    funext fun a => Fin.ext (by match a with | ⟨0, _⟩ => rfl | ⟨1, _⟩ => rfl | ⟨2, _⟩ => rfl)
  rw [val_main_v11_apply, e11, val_main_v10_apply, val_main_v8_apply, e8, val_main_v9_apply, val_main_cst_1_apply, rowsum_at]
  rfl

/-- The reference's result at (b, h, q, d) is the specification's element. -/
theorem result_at (b : Fin 4) (h : Fin 16) (q : Fin 2048) (d : Fin 64) :
    val_main_v13 (F := Ideal) Q K V M (ix4 b h q d)
      = Cert.Attn.rowAttn (qrow Q b h q) (keys K b h) (mrow M b q) (fun k => V (ix4 b h k d)) := by
  have el : ∀ k : Fin 2048, lidx_main_v13 (ix4 b h q d) k = (ix4 b h q k : S4x16x2048x2048.Idx) := fun k =>
    funext fun a => Fin.ext (by match a with | ⟨0, _⟩ => rfl | ⟨1, _⟩ => rfl | ⟨2, _⟩ => rfl | ⟨3, _⟩ => rfl)
  have er : ∀ k : Fin 2048, ridx_main_v13 (ix4 b h q d) k = (ix4 b h k d : S4x16x2048x64.Idx) := fun k =>
    funext fun a => Fin.ext (by match a with | ⟨0, _⟩ => rfl | ⟨1, _⟩ => rfl | ⟨2, _⟩ => rfl | ⟨3, _⟩ => rfl)
  rw [val_main_v13_apply]
  unfold Cert.Attn.rowAttn
  refine Finset.sum_congr rfl fun k _ => ?_
  rw [el, er, val_main_v12_apply, weight_at, denom_at]
  rfl

/-- The reference's result array is the specification of the four arguments. -/
theorem result_eq : val_main_v13 (F := Ideal) Q K V M = Cert.Attn.attn Q K V M := by
  funext i
  obtain ⟨b, h, q, d, rfl⟩ : ∃ (b : Fin 4) (h : Fin 16) (q : Fin 2048) (d : Fin 64), i = ix4 b h q d :=
    ⟨i 0, i 1, i 2, i 3, eq_ix4 i⟩
  exact result_at Q K V M b h q d

end Cert.ReferenceIdeal.RefValue

end
-- ==== Proof.lean ====
/-
  Unnormalised-exponential attention with a multiplicative mask: a tiled kernel against the plain formula.

  For batch `b`, head `h`, query `q` and feature `d` both programs compute, over the extended reals,
      out[b,h,q,d] = ∑ k, (w k / ((∑ k', w k') + ε)) · V[b,h,k,d],   w k = exp (s k · c) · mask[b,0,q,k],
      s k = ∑ e, Q[b,h,q,e] · K[b,h,k,e],
  with `ε` the same float word on both sides. The kernel takes a tile of 512 query rows, all keys and values of one
  (batch, head) and the tile's mask rows per grid point, forms the scores and the output by matrix products into zero
  accumulators, and scales a score by the word of 0.125; a change of float format on the way into a product is the
  identity on the extended reals. The reference divides a score by the square root of the word of 64.0 instead. Those
  two scalings are one function: both words are exact dyadics, the root of 64 is 8, and a quotient by a nonzero real
  is the product with its reciprocal at every extended real. Nothing is regrouped and no sum is reordered, so no
  finiteness of the inputs is used: the two sides are the same term, index by index.

  The kernel's result array is the specification because each point's block is the specification's block (a block's
  element sits at block index × block size + its coordinate, and the index maps place the query, key, value and mask
  blocks where the formula reads them) and the output blocks cover the array. The reference's result is the
  specification by reading its host operations one at a time at an index. The three programs' runs terminate without
  a fault and leave the arguments unchanged; the idealized kernel is the printed kernel's own text read at the
  extended reals, so nothing is owed for the idealization.
-/
import proofs.«179203_j33423435498058_1_alg».proof.Defs
import proofs.«179203_j33423435498058_1_alg».proof.Proof.Gen.Kernel
import proofs.«179203_j33423435498058_1_alg».proof.Proof.Gen.Kernel.Skeleton
import proofs.«179203_j33423435498058_1_alg».proof.Proof.Gen.Kernel.Launch
import proofs.«179203_j33423435498058_1_alg».proof.Proof.Gen.Kernel.Points
import proofs.«179203_j33423435498058_1_alg».proof.Proof.Gen.Kernel.Frame
import proofs.«179203_j33423435498058_1_alg».proof.Proof.Gen.KernelIdeal
import proofs.«179203_j33423435498058_1_alg».proof.Proof.Gen.KernelIdeal.Skeleton
import proofs.«179203_j33423435498058_1_alg».proof.Proof.Gen.KernelIdeal.Launch
import proofs.«179203_j33423435498058_1_alg».proof.Proof.Gen.KernelIdeal.Points
import proofs.«179203_j33423435498058_1_alg».proof.Proof.Gen.KernelIdeal.Frame
import proofs.«179203_j33423435498058_1_alg».proof.Proof.Gen.ReferenceIdeal
import proofs.«179203_j33423435498058_1_alg».proof.Proof.Gen.Pre_finite_inputs
import proofs.«179203_j33423435498058_1_alg».proof.Proof.Gen.KernelIdeal.Value
import proofs.«179203_j33423435498058_1_alg».proof.Proof.Gen.ReferenceIdeal.Run
import proofs.«179203_j33423435498058_1_alg».proof.Proof.Gen.ReferenceIdeal.Read
import proofs.«179203_j33423435498058_1_alg».proof.Proof.ArrayValue
import proofs.«179203_j33423435498058_1_alg».proof.Proof.RefIsAttn
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments the idealized kernel's result array and the reference's are both
    the specification of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
